-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S2x128 .f32) (main_arg7 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2 .f32 := Host.absf main_arg7
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S2x128 .f32) (main_arg7 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x2 : Shape := ⟨2, ![128, 2]⟩
abbrev S1x128 : Shape := ⟨2, ![1, 128]⟩
abbrev S2000x128 : Shape := ⟨2, ![2000, 128]⟩
abbrev S50000x2 : Shape := ⟨2, ![50000, 2]⟩

abbrev nBuf : Space → Nat
  | .hbm => 46
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S2x128, .f32⟩
  | .hbm, ⟨7, _⟩ => ⟨S2, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S128x128, .f32⟩
  | .hbm, ⟨34, _⟩ => ⟨S128x128, .f32⟩
  | .hbm, ⟨35, _⟩ => ⟨S128x2, .f32⟩
  | .hbm, ⟨36, _⟩ => ⟨S_, .i32⟩
  | .hbm, ⟨37, _⟩ => ⟨S_, .f32⟩
  | .hbm, ⟨38, _⟩ => ⟨S128x128, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S50000x128, .f32⟩
  | .hbm, ⟨45, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_call0_v0 : Ref sig .tc := ⟨.hbm, 37, rfl⟩
abbrev main_v22 : Ref sig .tc := ⟨.hbm, 38, rfl⟩
abbrev main_c_5 : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  transposes_S2x128_S128x2_1_0 : S2x128.Transposes [1, 0] S128x2
  pads_S128x2_S128x128_000_01260 : S128x2.Pads (![0, 0] : Fin 2 → Nat) ![0, 126] ![0, 0] S128x128
  h_S_ : 0 < S_.numel
  pads_S2_S128_01260 : S2.Pads (![0] : Fin 1 → Nat) ![126] ![0] S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S50000x128_S50000x2_0_0 : S50000x128.Slices ![0, 0] S50000x2
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S2x128, .f32⟩
  | .hbm, ⟨7, _⟩ => ⟨S2, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S128x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S128x2, .f32⟩
  | .hbm, ⟨45, _⟩ => ⟨S50000x2, .f32⟩
  | .hbm, ⟨46, _⟩ => ⟨S1x2, .f32⟩
  | .hbm, ⟨47, _⟩ => ⟨S50000x2, .f32⟩
  | .hbm, ⟨48, _⟩ => ⟨S50000x2, .f32⟩
  | .hbm, ⟨49, _⟩ => ⟨S50000x2, .f32⟩
  | .hbm, ⟨50, _⟩ => ⟨S50000x2, .f32⟩
  | .hbm, ⟨51, _⟩ => ⟨S_, .f32⟩
  | .hbm, ⟨52, _⟩ => ⟨S50000x2, .f32⟩
  | .hbm, ⟨53, _⟩ => ⟨S50000x2, .f32⟩
  | .hbm, ⟨54, _⟩ => ⟨S_, .f32⟩
  | .hbm, ⟨55, _⟩ => ⟨S50000x2, .f32⟩
  | .hbm, ⟨56, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.NodeScore.lean ====
/-
  The function both programs compute for one node and one class, on the extended reals.

  A node has a feature row `x` and a row `h` (the mean of its in-neighbours' feature rows; how that mean is
  formed plays no part here). The hidden layer has 128 units: unit `k` is
  `max (⟨x, Wself k⟩ + ⟨h, Wneigh k⟩ + b k) 0`, the sums over the 128 input features. A class's score is the logistic
  function of `⟨hidden, wf⟩ + bf`, where `wf` is that class's row of the classifier matrix and `bf` its bias.
  Sums are sums over `Fin 128` in `EReal`; nothing here needs the entries to be finite, because both programs
  form the same sums of the same products in the same grouping.
-/
import Idealize.ShloMosaic.PureOps.Ideal
import Idealize.ShloMosaic.Lib.ValueIdx

noncomputable section

namespace Cert.Sage

open Idealize.ShloMosaic

/-- The float zero both programs clamp against: the f32 word `0x00000000`, kept as a word (it is the same word
    on both sides, so its value is never needed). -/
abbrev zeroWord : EReal := Ideal.ofBits .f32 0x00000000#32

/-- Hidden unit `k` of a node with feature row `x` and neighbour-mean row `h`:
    `max (∑ₗ x l · ws k l + ∑ₗ h l · wn k l + b k) 0`. -/
def hidden (x h : Fin 128 → EReal) (ws wn : Fin 128 → Fin 128 → EReal) (b : Fin 128 → EReal) (k : Fin 128) : EReal :=
  max ((∑ l : Fin 128, x l * ws k l) + (∑ l : Fin 128, h l * wn k l) + b k) zeroWord

/-- One class's score of that node: the logistic function of `∑ₖ hidden k · wf k + bf`. -/
def score (x h : Fin 128 → EReal) (ws wn : Fin 128 → Fin 128 → EReal) (b wf : Fin 128 → EReal) (bf : EReal) : EReal :=
  Ideal.logistic ((∑ k : Fin 128, hidden x h ws wn b k * wf k) + bf)

/-- Equal rows, weights and biases give equal scores. -/
theorem score_congr {x x' h h' : Fin 128 → EReal} {ws ws' wn wn' : Fin 128 → Fin 128 → EReal} {b b' wf wf' : Fin 128 → EReal}
    {bf bf' : EReal} (e1 : x = x') (e2 : h = h') (e3 : ws = ws') (e4 : wn = wn') (e5 : b = b') (e6 : wf = wf') (e7 : bf = bf') :
    score x h ws wn b wf bf = score x' h' ws' wn' b' wf' bf' := by
  subst e1 e2 e3 e4 e5 e6 e7; rfl

/-- Node i's score for class j from the whole arrays: features `x` and neighbour means `hn` (50000×128), the two weight
    matrices as given (unit k's weights are row k), the hidden bias, the classifier matrix (class j's weights are row j)
    and its bias. -/
def nodeScore (x hn : (⟨2, ![50000, 128]⟩ : Shape).Idx → EReal) (ws wn : (⟨2, ![128, 128]⟩ : Shape).Idx → EReal)
    (b : (⟨1, ![128]⟩ : Shape).Idx → EReal) (wf : (⟨2, ![2, 128]⟩ : Shape).Idx → EReal) (bf : (⟨1, ![2]⟩ : Shape).Idx → EReal)
    (i : Fin 50000) (j : Fin 2) : EReal :=
  score (fun l => x (ValueIdx.ix2 i l)) (fun l => hn (ValueIdx.ix2 i l)) (fun k l => ws (ValueIdx.ix2 k l))
    (fun k l => wn (ValueIdx.ix2 k l)) (fun k => b (ValueIdx.ix1 k)) (fun k => wf (ValueIdx.ix2 j k)) (bf (ValueIdx.ix1 j))

/-- The 50000×2 array of all scores. -/
def scores (x hn : (⟨2, ![50000, 128]⟩ : Shape).Idx → EReal) (ws wn : (⟨2, ![128, 128]⟩ : Shape).Idx → EReal)
    (b : (⟨1, ![128]⟩ : Shape).Idx → EReal) (wf : (⟨2, ![2, 128]⟩ : Shape).Idx → EReal) (bf : (⟨1, ![2]⟩ : Shape).Idx → EReal) :
    (⟨2, ![50000, 2]⟩ : Shape).Idx → EReal :=
  fun p => nodeScore x hn ws wn b wf bf ⟨(p 0).val, (p 0).isLt⟩ ⟨(p 1).val, (p 1).isLt⟩

end Cert.Sage

end
-- ==== Proof.KernelBody.lean ====
/-
  What the kernel body stores, read at one entry.

  The body loads a 2000-row block of node features `x` and of neighbour means `h`, the two 128×128 weight matrices
  already transposed (`wsT`, `wnT`: entry (l, k) is weight k of input feature l), the bias as one row, the classifier
  matrix transposed and padded to 128 columns (`wf`) and its bias as one row, and stores
  `logistic ((max (x·wsT + h·wnT + b) 0)·wf + bf)`, the three products being matrix products into a zero accumulator
  and the roundings to bf16 the identity on the extended reals. Entry (p, q) of the stored block therefore depends on
  row p of `x` and of `h` only, and is `Sage.score` of those two rows, the weights read column-wise, and column q of `wf`.
-/
import proofs.«119287_j53266184405049_1_alg».proof.Proof.Gen.KernelIdeal.Skeleton
import proofs.«119287_j53266184405049_1_alg».proof.Proof.NodeScore
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The first coordinate of the left operand's index of the body's matrix product is the output row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- Its second coordinate is the contracted index. -/
theorem lhs_contr (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's first coordinate is the contracted index, -/
theorem rhs_contr (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and its second the output column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128]·[128,128] product into the zero accumulator, at (p, q): `∑ₖ l(p,k) · r(k,q)`. -/
theorem product_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_contr _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- A one-row matrix laid along each of the 2000 rows, at (p, q): the row's entry q. -/
theorem row_apply (v : Vec Ideal S1x128 .f32) (p : Fin 2000) (q : Fin 128) :
    broadcastTo S2000x128 v broadcasts_S1x128_S2000x128 (ix2 p q) = v (ix2 (0 : Fin 1) q) := by
  refine broadcastTo_apply v broadcasts_S1x128_S2000x128 (ix2 p q) (ix2 (0 : Fin 1) q) ?_
  intro a
  match a with
  | ⟨0, _⟩ => rfl
  | ⟨1, _⟩ => rfl

/-- THE STORED BLOCK AT (p, q): the score of row p of the two loaded blocks against column q of the classifier block. -/
theorem stored_apply (v0 v2 : Vec Ideal S2000x128 .f32) (v5 v8 v11 : Vec Ideal S128x128 .f32) (v17 v25 : Vec Ideal S1x128 .f32)
    (p : Fin 2000) (q : Fin 128) :
    k0_pay1 (F := Ideal) v0 v2 v5 v8 v11 v17 v25 (ix2 p q)
      = Sage.score (fun l => v0 (ix2 p l)) (fun l => v2 (ix2 p l)) (fun k l => v5 (ix2 l k)) (fun k l => v8 (ix2 l k))
          (fun k => v17 (ix2 (0 : Fin 1) k)) (fun k => v11 (ix2 k q)) (v25 (ix2 (0 : Fin 1) q)) := by
  unfold k0_pay1
  simp only [shapeCast_self]
  show Ideal.logistic (matmul (F := Ideal) _ none _ _ _ (ix2 p q) + broadcastTo _ _ _ (ix2 p q)) = Ideal.logistic (_ + _)
  rw [product_apply, row_apply]
  refine congrArg (fun s => Ideal.logistic (s + v25 (ix2 (0 : Fin 1) q))) (Finset.sum_congr rfl fun k _ => ?_)
  show _ * v11 (ix2 k q) = _ * v11 (ix2 k q)
  congr 1
  show max (matmul (F := Ideal) _ none _ _ _ (ix2 p k) + matmul (F := Ideal) _ none _ _ _ (ix2 p k) + broadcastTo _ _ _ (ix2 p k)) _ = _
  rw [product_apply, product_apply, row_apply]
  rfl

end Cert.KernelIdeal.Body

end
-- ==== Proof.KernelArray.lean ====
/-
  The kernel's output array after the region, as one function of the arrays its windows read.

  The grid has 25 points. At point t the output window and the two row-blocked inputs (features, neighbour means) sit
  on rows 2000·t … 2000·t + 1999, all 128 columns; the five parameter windows are the whole of their arrays at every
  point. So entry (p, q) of what point t writes back is the score of row 2000·t + p for column q of the padded classifier,
  the 25 blocks tile the 50000 rows, and the array ends holding that score at every (row, column).
-/
import proofs.«119287_j53266184405049_1_alg».proof.Proof.Gen.KernelIdeal.Frame
import proofs.«119287_j53266184405049_1_alg».proof.Proof.KernelBody
import Idealize.ShloMosaic.Lib.Pipeline.Value

noncomputable section

namespace Cert.KernelIdeal.Array

open Idealize.ShloMosaic Idealize.ShloMosaic.TcCoe Idealize.ShloMosaic.ValueIdx Idealize.SL.Sem
open Idealize.ShloMosaic.Pipeline (Dat Cfg Window)
open Cert.KernelIdeal Cert.KernelIdeal.Gen

theorem origin : (![0, 0] : Fin 2 → Nat) = fun _ => 0 := funext fun a => by fin_cases a <;> rfl

/-- Entry (r, q) of the output from the seven arrays the windows read: features, neighbour means, the two transposed
    weight matrices, the padded classifier matrix, and the two one-row biases. -/
def entry (X HN : S50000x128.Idx → EReal) (WS WN WF : S128x128.Idx → EReal) (B BF : S1x128.Idx → EReal)
    (r : Fin 50000) (q : Fin 128) : EReal :=
  Sage.score (fun l => X (ix2 r l)) (fun l => HN (ix2 r l)) (fun k l => WS (ix2 l k)) (fun k l => WN (ix2 l k))
    (fun k => B (ix2 (0 : Fin 1) k)) (fun k => WF (ix2 k q)) (BF (ix2 (0 : Fin 1) q))

/-- The 50000×128 output array from the seven arrays, in the windows' order (features, neighbour means, the two
    transposed weight matrices, the hidden bias row, the padded classifier, its bias row). -/
def padded (A0 A1 : S50000x128.Idx → EReal) (A2 A3 : S128x128.Idx → EReal) (A4 : S1x128.Idx → EReal)
    (A5 : S128x128.Idx → EReal) (A6 : S1x128.Idx → EReal) : S50000x128.Idx → EReal := fun i =>
  entry A0 A1 A2 A3 A5 A4 A6 ⟨(i 0).val, (i 0).isLt⟩ ⟨(i 1).val, (i 1).isLt⟩

/-- Where each window sits at a grid point: the row-blocked inputs move with the output's rows, every other block
    index is zero, and the output's row block index is at most 24. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 24 ∧ win0_7.index t (1 : Fin 2) = 0 :=
  (by decide +kernel : ∀ t : Fin grid0.N, _)

/-- Every row block is some point's. -/
theorem idx_onto : ∀ q0 : Fin 25, ∃ t : Fin cfg0.N, win0_7.index t = ![q0.val, 0] :=
  (by decide +kernel : ∀ q0 : Fin 25, ∃ t : Fin grid0.N, win0_7.index t = ![q0.val, 0])

/-! ## A window's block of an array, read where the output's block sits -/

theorem rows0_read (A : S50000x128.Idx → EReal) (t : Fin cfg0.N) (p : Fin 2000) (l : Fin 128) (r : Fin 50000)
    (hr : r.val = win0_7.index t (0 : Fin 2) * 2000 + p.val) :
    ((cfg0.win 0).blk t).view.read (Elt Ideal) A (ix2 p l) = A (ix2 r l) := by
  have e := idx_facts t
  show A (((cfg0.win 0).blk t).view.emb (ix2 p l)) = A (ix2 r l)
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * l.val = l.val; omega

theorem rows1_read (A : S50000x128.Idx → EReal) (t : Fin cfg0.N) (p : Fin 2000) (l : Fin 128) (r : Fin 50000)
    (hr : r.val = win0_7.index t (0 : Fin 2) * 2000 + p.val) :
    ((cfg0.win 1).blk t).view.read (Elt Ideal) A (ix2 p l) = A (ix2 r l) := by
  have e := idx_facts t
  show A (((cfg0.win 1).blk t).view.emb (ix2 p l)) = A (ix2 r l)
  refine congrArg A (funext fun a => Fin.ext ?_)
  match a with
  | ⟨0, _⟩ => show win0_1.index t (0 : Fin 2) * 2000 + 1 * p.val = r.val; omega
  | ⟨1, _⟩ => show win0_1.index t (1 : Fin 2) * 128 + 1 * l.val = l.val; omega

theorem whole2_read (A : S128x128.Idx → EReal) (t : Fin cfg0.N) (y : S128x128.Idx) :
    ((cfg0.win 2).blk t).view.read (Elt Ideal) A y = A y := by
  have e := idx_facts t
  show A (((cfg0.win 2).blk t).view.emb y) = A y
  refine congrArg A (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem whole3_read (A : S128x128.Idx → EReal) (t : Fin cfg0.N) (y : S128x128.Idx) :
    ((cfg0.win 3).blk t).view.read (Elt Ideal) A y = A y := by
  have e := idx_facts t
  show A (((cfg0.win 3).blk t).view.emb y) = A y
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem whole4_read (A : S1x128.Idx → EReal) (t : Fin cfg0.N) (y : S1x128.Idx) :
    ((cfg0.win 4).blk t).view.read (Elt Ideal) A y = A y := by
  have e := idx_facts t
  show A (((cfg0.win 4).blk t).view.emb y) = A y
  refine congrArg A (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem whole5_read (A : S128x128.Idx → EReal) (t : Fin cfg0.N) (y : S128x128.Idx) :
    ((cfg0.win 5).blk t).view.read (Elt Ideal) A y = A y := by
  have e := idx_facts t
  show A (((cfg0.win 5).blk t).view.emb y) = A y
  refine congrArg A (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem whole6_read (A : S1x128.Idx → EReal) (t : Fin cfg0.N) (y : S1x128.Idx) :
    ((cfg0.win 6).blk t).view.read (Elt Ideal) A y = A y := by
  have e := idx_facts t
  show A (((cfg0.win 6).blk t).view.emb y) = A y
  refine congrArg A (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## What a point writes back, and the cover -/

/-- What the body leaves at point t from the seven arrays' blocks there, read through the output's block, is block t of
    `padded` of the arrays. -/
theorem block_eq (A0 A1 : S50000x128.Idx → EReal) (A2 A3 : S128x128.Idx → EReal) (A4 : S1x128.Idx → EReal)
    (A5 : S128x128.Idx → EReal) (A6 : S1x128.Idx → EReal) (t : Fin cfg0.N) :
    (cfg0.win 7).cut (grid0.coords t)
        (out0_7 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (padded A0 A1 A2 A3 A4 A5 A6) := by
  unfold out0_7
  rw [View.canon_unit_zero origin]
  simp only [View.ld_unit_zero (S := S2000x128) origin, View.ld_unit_zero (S := S128x128) origin, View.ld_unit_zero (S := S1x128) origin]
  funext j
  obtain ⟨p, q, rfl⟩ : ∃ (p : Fin 2000) (q : Fin 128), j = ix2 p q := ⟨j 0, j 1, eq_ix2 j⟩
  have e := idx_facts t
  have hp : p.val < 2000 := p.isLt
  let r : Fin 50000 := ⟨win0_7.index t (0 : Fin 2) * 2000 + p.val, by omega⟩
  have hemb : ((cfg0.win 7).blk t).view.emb (ix2 p q) = ix2 r q := funext fun a => Fin.ext (by
    match a with
    | ⟨0, _⟩ => show win0_7.index t (0 : Fin 2) * 2000 + 1 * p.val = win0_7.index t (0 : Fin 2) * 2000 + p.val; omega
    | ⟨1, _⟩ => show win0_7.index t (1 : Fin 2) * 128 + 1 * q.val = q.val; omega)
  refine (Body.stored_apply (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 5).blk t).view.read (Elt Ideal) A5) (((cfg0.win 4).blk t).view.read (Elt Ideal) A4)
    (((cfg0.win 6).blk t).view.read (Elt Ideal) A6) p q).trans ?_
  show _ = padded A0 A1 A2 A3 A4 A5 A6 (((cfg0.win 7).blk t).view.emb (ix2 p q))
  rw [hemb]
  show _ = entry A0 A1 A2 A3 A5 A4 A6 r q
  unfold entry
  exact Sage.score_congr (funext fun l => rows0_read A0 t p l r rfl) (funext fun l => rows1_read A1 t p l r rfl)
    (funext fun k => funext fun l => whole2_read A2 t (ix2 l k)) (funext fun k => funext fun l => whole3_read A3 t (ix2 l k))
    (funext fun k => whole4_read A4 t (ix2 (0 : Fin 1) k)) (funext fun k => whole5_read A5 t (ix2 k q))
    (whole6_read A6 t (ix2 (0 : Fin 1) q))

/-- An index of the array is in point t's block iff each coordinate is in the block's range on its axis. -/
theorem mem_blk (t : Fin cfg0.N) (i : S50000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v26).slice (win0_7.rect t)).set ↔ _
  rw [View.set_slice_whole, Rect.mem_set_unit]
  exact Iff.rfl

/-- Every index is in the block of the point that holds its row: row r is in block r / 2000. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

end Cert.KernelIdeal.Array

end
-- ==== Proof.KernelColumns.lean ====
/-
  The first two columns of the kernel's output array, when its parameter arrays are the host's re-layings of the
  arguments: the two weight matrices transposed, the hidden bias as one row, the classifier matrix transposed and padded
  on the right, its bias padded and as one row. Transposing swaps the two coordinates back; a one-row cast reads the
  vector's entry; a padded array read inside the part it was padded from reads that part. So column j < 2 is class j's
  score of the arguments themselves, whatever the padding value is.
-/
import proofs.«119287_j53266184405049_1_alg».proof.Proof.KernelArray
import Idealize.ShloMosaic.Lib.Pipeline.Value
import Idealize.ShloMosaic.Lib.KernelVsHost

noncomputable section

namespace Cert.KernelIdeal.Array

open Idealize.ShloMosaic Idealize.ShloMosaic.ValueIdx
open Cert.KernelIdeal Cert.KernelIdeal.Gen

/-- The kept columns are the scores of the arguments. -/
theorem columns_eq (x0 hn : S50000x128.Idx → EReal) (x3 x4 : S128x128.Idx → EReal) (x5 : S128.Idx → EReal)
    (x6 : S2x128.Idx → EReal) (x7 : S2.Idx → EReal) (z : S_.Idx → EReal) :
    extractStridedSlice S50000x2 ![0, 0]
        (padded x0 hn (transpose S128x128 [1, 0] x3 transposes_S128x128_S128x128_1_0)
          (transpose S128x128 [1, 0] x4 transposes_S128x128_S128x128_1_0)
          (shapeCast S1x128 x5 shapeCasts_S128_S1x128)
          (pad S128x128 ![0, 0] ![0, 126] ![0, 0] (transpose S128x2 [1, 0] x6 transposes_S2x128_S128x2_1_0) z
            pads_S128x2_S128x128_000_01260 h_S_)
          (shapeCast S1x128 (pad S128 ![0] ![126] ![0] x7 z pads_S2_S128_01260 h_S_) shapeCasts_S128_S1x128))
        slices_S50000x128_S50000x2_0_0
      = Sage.scores x0 hn x3 x4 x5 x6 x7 := by
  funext p
  obtain ⟨i, j, rfl⟩ : ∃ (i : Fin 50000) (j : Fin 2), p = ix2 i j := ⟨p 0, p 1, eq_ix2 p⟩
  have hj : j.val < 2 := j.isLt
  have hj' : j.val < 128 := by omega
  refine (extractStridedSlice_apply ![0, 0] _ slices_S50000x128_S50000x2_0_0 (ix2 i j) (ix2 i (⟨j.val, hj'⟩ : Fin 128)) ?_).trans ?_
  · intro a
    match a with
    | ⟨0, _⟩ => show i.val = 0 + i.val; omega
    | ⟨1, _⟩ => show j.val = 0 + j.val; omega
  show entry x0 hn _ _ _ _ _ i ⟨j.val, hj'⟩ = Sage.nodeScore x0 hn x3 x4 x5 x6 x7 i j
  unfold entry Sage.nodeScore
  refine Sage.score_congr rfl rfl ?_ ?_ ?_ ?_ ?_
  · funext k l
    exact transpose_apply [1, 0] x3 transposes_S128x128_S128x128_1_0 (ix2 l k) (ix2 k l) (fun b => match b with
      | ⟨0, _⟩ => rfl
      | ⟨1, _⟩ => rfl)
  · funext k l
    exact transpose_apply [1, 0] x4 transposes_S128x128_S128x128_1_0 (ix2 l k) (ix2 k l) (fun b => match b with
      | ⟨0, _⟩ => rfl
      | ⟨1, _⟩ => rfl)
  · funext k
    exact shapeCast_apply x5 shapeCasts_S128_S1x128 (ix2 (0 : Fin 1) k) (ix1 k) (by
      rw [Shape.rowMajor_val_one, Shape.rowMajor_val_two]; show k.val = 0 * 128 + k.val; omega)
  · funext k
    refine (pad_apply_of_inside ![0, 0] ![0, 126] ![0, 0] (transpose S128x2 [1, 0] x6 transposes_S2x128_S128x2_1_0) z
      pads_S128x2_S128x128_000_01260 h_S_ (ix2 k (⟨j.val, hj'⟩ : Fin 128)) (ix2 k j) ?_).trans ?_
    · intro a
      match a with
      | ⟨0, _⟩ => show k.val = 0 + k.val * (0 + 1); omega
      | ⟨1, _⟩ => show j.val = 0 + j.val * (0 + 1); omega
    · exact transpose_apply [1, 0] x6 transposes_S2x128_S128x2_1_0 (ix2 k j) (ix2 j k) (fun b => match b with
        | ⟨0, _⟩ => rfl
        | ⟨1, _⟩ => rfl)
  · refine (shapeCast_apply (pad S128 ![0] ![126] ![0] x7 z pads_S2_S128_01260 h_S_) shapeCasts_S128_S1x128
      (ix2 (0 : Fin 1) (⟨j.val, hj'⟩ : Fin 128)) (ix1 (⟨j.val, hj'⟩ : Fin 128)) (by
        rw [Shape.rowMajor_val_one, Shape.rowMajor_val_two]; show j.val = 0 * 128 + j.val; omega)).trans ?_
    exact pad_apply_of_inside ![0] ![126] ![0] x7 z pads_S2_S128_01260 h_S_ (ix1 (⟨j.val, hj'⟩ : Fin 128)) (ix1 j) (by
      intro a
      match a with
      | ⟨0, _⟩ => show j.val = 0 + j.val * (0 + 1); omega)

end Cert.KernelIdeal.Array

end
-- ==== Proof.KernelEntry.lean ====
/-
  What the kernel's windows find in their arrays when the region is entered.

  Before the region the program forms, on the host: the mean of each node's in-neighbours' feature rows (a gather by
  source, a scatter-add by destination, a degree count, a division) — the reference program forms it by the very same
  operations, so it is named here by the reference's own term and never opened —; the transposes of the two weight
  matrices; the classifier matrix transposed and padded with 126 further columns; the two biases as one-row matrices
  (the classifier's first padded with 126 further entries). Each lemma reads one such array back as that operation of the
  argument arrays.
-/
import proofs.«119287_j53266184405049_1_alg».proof.Proof.Gen.KernelIdeal.Frame
import proofs.«119287_j53266184405049_1_alg».proof.Proof.Gen.ReferenceIdeal.Read
import Idealize.ShloMosaic.Lib.StableHlo.Run

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Window 1's array is the neighbour mean of the features by the edge lists, as the reference forms it. -/
theorem neigh_mean (c : Dev nD) :
    V m c main_v18 = Cert.ReferenceIdeal.Read.val_main_v18 (F := Ideal) (m ((c : Thread nD τ).loc main_arg0))
      (m ((c : Thread nD τ).loc main_arg1)) (m ((c : Thread nD τ).loc main_arg2)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Window 2's array is the first weight matrix transposed. -/
theorem self_weights (c : Dev nD) :
    V m c main_v19 = transpose S128x128 [1, 0] (m ((c : Thread nD τ).loc main_arg3)) transposes_S128x128_S128x128_1_0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Window 3's array is the second weight matrix transposed. -/
theorem neigh_weights (c : Dev nD) :
    V m c main_v20 = transpose S128x128 [1, 0] (m ((c : Thread nD τ).loc main_arg4)) transposes_S128x128_S128x128_1_0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Window 4's array is the hidden layer's bias as one row. -/
theorem bias_row (c : Dev nD) :
    V m c main_v24 = shapeCast S1x128 (m ((c : Thread nD τ).loc main_arg5)) shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Window 5's array is the classifier matrix transposed, with 126 further columns of the converted integer zero. -/
theorem class_weights (c : Dev nD) :
    V m c main_v22 = pad S128x128 ![0, 0] ![0, 126] ![0, 0]
      (transpose S128x2 [1, 0] (m ((c : Thread nD τ).loc main_arg6)) transposes_S2x128_S128x2_1_0)
      (sitofp (F := Ideal) .f32 (constantI S_ 32 0#32)) pads_S128x2_S128x128_000_01260 h_S_ := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

/-- Window 6's array is the classifier's bias with 126 further entries, as one row. -/
theorem class_bias_row (c : Dev nD) :
    V m c main_v25 = shapeCast S1x128 (pad S128 ![0] ![126] ![0] (m ((c : Thread nD τ).loc main_arg7))
      (sitofp (F := Ideal) .f32 (constantI S_ 32 0#32)) pads_S2_S128_01260 h_S_) shapeCasts_S128_S1x128 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp <;> rfl

end Cert.KernelIdeal.Entry

end
-- ==== Proof.KernelRun.lean ====
/-
  The kernel program's run, with its result named.

  After the region the program keeps the first two of the output array's 128 columns. The output array is the score of
  every (row, padded-classifier column) (KernelArray) of the arrays the region found; those are the argument arrays
  re-laid on the host (KernelEntry). Column j < 2 of the padded classifier is class j's row of the classifier matrix and
  entry j of the padded bias is class j's bias, so the kept columns are the scores of the argument arrays themselves.
-/
import proofs.«119287_j53266184405049_1_alg».proof.Proof.KernelArray
import proofs.«119287_j53266184405049_1_alg».proof.Proof.KernelColumns
import proofs.«119287_j53266184405049_1_alg».proof.Proof.KernelEntry
import Idealize.ShloMosaic.Lib.StableHlo.Run
import Idealize.ShloMosaic.Lib.KernelVsHost

noncomputable section

namespace Cert.KernelIdeal.Run

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- The output array of the arrays as the region finds them. -/
def outArr (c : Dev nD) : S50000x128.Idx → EReal :=
  Array.padded (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))

/-- WHAT POINT t WRITES BACK is block t of `outArr`. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7]
  unfold iblk outArr
  exact Array.block_eq _ _ _ _ _ _ _ t

/-- THE ARRAY after the region: the 25 blocks tile it. -/
theorem final (c : Dev nD) : (dats m 0 c).arrAt 7 cfg0.N = outArr m c :=
  (dats m 0 c).arrAt_eq_of_cover 7 (outArr m c) (fun t _ => flushed_eq m c t) Array.cover

/-- The program's result: the output array's first two columns. -/
theorem tail_eq (c : Dev nD) :
    Pipeline.afterTail₀ cfgs (dats m) 0 (V0 m) [hostOps1] c main_v27
      = extractStridedSlice S50000x2 ![0, 0] (outArr m c) slices_S50000x128_S50000x2_0_0 := by
  unfold Pipeline.afterTail₀
  show StableHlo.after hostOps1 _ (Proc.devRef .tc main_v27) = _
  after_results
  have h := (Pipeline.withArrays_arr spec0 launch0.win.arr_inj c (V0 m c) (fun w => (dats m 0 c).arrAt w cfg0.N) 7).trans (final m c)
  exact congrArg (fun A : S50000x128.Idx → EReal => extractStridedSlice S50000x2 ![0, 0] A slices_S50000x128_S50000x2_0_0) h

/-- The kept columns are the scores of the argument arrays (the neighbour mean named by the reference's term). -/
theorem result_eq (c : Dev nD) :
    extractStridedSlice S50000x2 ![0, 0] (outArr m c) slices_S50000x128_S50000x2_0_0
      = Sage.scores (m ((c.tc : Thread nD τ).loc main_arg0))
          (Cert.ReferenceIdeal.Read.val_main_v18 (F := Ideal) (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold outArr
  rw [show V m c (Pipeline.arrRef spec0 0) = _ from V_main_arg0 m c,
    show V m c (Pipeline.arrRef spec0 1) = _ from Entry.neigh_mean m c,
    show V m c (Pipeline.arrRef spec0 2) = _ from Entry.self_weights m c,
    show V m c (Pipeline.arrRef spec0 3) = _ from Entry.neigh_weights m c,
    show V m c (Pipeline.arrRef spec0 4) = _ from Entry.bias_row m c,
    show V m c (Pipeline.arrRef spec0 5) = _ from Entry.class_weights m c,
    show V m c (Pipeline.arrRef spec0 6) = _ from Entry.class_bias_row m c]
  exact Array.columns_eq _ _ _ _ _ _ _ _

/-- THE RUN: every weakly fair execution terminates with the result at the scores of the arguments, the arguments
    unchanged. -/
theorem run : θ_run defs (onTc (τ := τ) (main (F := Ideal))) ⟨m, fun _ => 0, ρ⟩ (fun r => ∀ c : Dev nD,
      r.2.mem ((c.tc : Thread nD τ).loc main_v27) = Sage.scores (m ((c.tc : Thread nD τ).loc main_arg0))
          (Cert.ReferenceIdeal.Read.val_main_v18 (F := Ideal) (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v27 (Pipeline.mem_restRefs_of main_v27 (by decide) (by decide))).trans ((tail_eq m c).trans (result_eq m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Run

end
-- ==== Proof.ReferenceScore.lean ====
/-
  The reference's result, read at one entry.

  The reference forms the same neighbour mean `h` on the host, then `relu (x·Wselfᵀ + h·Wneighᵀ + b)`, its product with
  `Wfcᵀ` plus `bfc`, and `1 / (1 + exp (−·))` of that. Read at node i and class j through the generated
  read-at-an-index lemmas, each matrix product is a sum over the 128 contracted positions, a transpose swaps the two
  coordinates, a broadcast bias reads its one entry, and `1 / (1 + exp (−z))` is the logistic function of `z` (the f32
  word of one is the number one). So the entry is `Sage.score` of row i of `x` and of `h`, the weights as given, and
  row j of the classifier matrix.
-/
import proofs.«119287_j53266184405049_1_alg».proof.Proof.Gen.ReferenceIdeal.Read
import proofs.«119287_j53266184405049_1_alg».proof.Proof.NodeScore
import Idealize.ShloMosaic.Lib.IdealHost

noncomputable section

namespace Cert.ReferenceIdeal.Score

open Idealize.ShloMosaic Idealize.ShloMosaic.ValueIdx Cert.ReferenceIdeal Cert.ReferenceIdeal.Read

/-! ## The composed index maps, as coordinates -/

theorem feat_idx (i : Fin 50000) (k l : Fin 128) : lidx_main_v20 (ix2 i k) l = ix2 i l :=
  funext fun a => by match a with | ⟨0, _⟩ => rfl | ⟨1, _⟩ => rfl
theorem self_w_idx (i : Fin 50000) (k l : Fin 128) : idx_main_v19 (ridx_main_v20 (ix2 i k) l) = ix2 k l :=
  funext fun a => by match a with | ⟨0, _⟩ => rfl | ⟨1, _⟩ => rfl
theorem mean_idx (i : Fin 50000) (k l : Fin 128) : lidx_main_v22 (ix2 i k) l = ix2 i l :=
  funext fun a => by match a with | ⟨0, _⟩ => rfl | ⟨1, _⟩ => rfl
theorem neigh_w_idx (i : Fin 50000) (k l : Fin 128) : idx_main_v21 (ridx_main_v22 (ix2 i k) l) = ix2 k l :=
  funext fun a => by match a with | ⟨0, _⟩ => rfl | ⟨1, _⟩ => rfl
theorem bias_idx (i : Fin 50000) (k : Fin 128) : idx_main_v24 (idx_main_v25 (ix2 i k)) = ix1 k :=
  funext fun a => by match a with | ⟨0, _⟩ => rfl
theorem hid_idx (i : Fin 50000) (j : Fin 2) (k : Fin 128) : lidx_main_v29 (ix2 i j) k = ix2 i k :=
  funext fun a => by match a with | ⟨0, _⟩ => rfl | ⟨1, _⟩ => rfl
theorem class_w_idx (i : Fin 50000) (j : Fin 2) (k : Fin 128) : idx_main_v28 (ridx_main_v29 (ix2 i j) k) = ix2 j k :=
  funext fun a => by match a with | ⟨0, _⟩ => rfl | ⟨1, _⟩ => rfl
theorem class_b_idx (i : Fin 50000) (j : Fin 2) : idx_main_v30 (idx_main_v31 (ix2 i j)) = ix1 j :=
  funext fun a => by match a with | ⟨0, _⟩ => rfl

/-! ## The hidden layer and the result -/

/-- The reference's hidden layer at node i, unit k. -/
theorem hidden_apply (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (i : Fin 50000) (k : Fin 128) :
    val_main_v27 (F := Ideal) x0 x1 x2 x3 x4 x5 (ix2 i k)
      = Sage.hidden (fun l => x0 (ix2 i l)) (fun l => val_main_v18 (F := Ideal) x0 x1 x2 (ix2 i l))
          (fun k l => x3 (ix2 k l)) (fun k l => x4 (ix2 k l)) (fun k => x5 (ix1 k)) k := by
  rw [val_main_v27_apply, val_main_v26_apply, val_main_v23_apply, val_main_v20_apply, val_main_v22_apply, val_main_v25_apply,
    val_main_v24_apply, val_main_call0_v0_apply, val_main_call0_cst_apply]
  simp only [val_main_v19_apply, val_main_v21_apply, feat_idx, self_w_idx, mean_idx, neigh_w_idx, bias_idx]
  rfl

/-- THE REFERENCE'S RESULT AT (i, j): the score of node i for class j. -/
theorem result_apply (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 : (⟨S2x128, .f32⟩ : BufTy).Contents (Elt Ideal)) (x7 : (⟨S2, .f32⟩ : BufTy).Contents (Elt Ideal)) (i : Fin 50000) (j : Fin 2) :
    val_main_v38 (F := Ideal) x0 x1 x2 x3 x4 x5 x6 x7 (ix2 i j)
      = Sage.score (fun l => x0 (ix2 i l)) (fun l => val_main_v18 (F := Ideal) x0 x1 x2 (ix2 i l))
          (fun k l => x3 (ix2 k l)) (fun k l => x4 (ix2 k l)) (fun k => x5 (ix1 k)) (fun k => x6 (ix2 j k)) (x7 (ix1 j)) := by
  rw [val_main_v38_apply, val_main_v37_apply, val_main_cst_5_apply, val_main_v36_apply, val_main_v35_apply, val_main_cst_4_apply,
    val_main_v34_apply, val_main_v33_apply, val_main_v32_apply, val_main_v29_apply, val_main_v31_apply, val_main_v30_apply]
  simp only [val_main_v28_apply, hid_idx, class_w_idx, class_b_idx, hidden_apply]
  show Ideal.div (Ideal.ofBits .f32 0x3F800000#32) (Ideal.ofBits .f32 0x3F800000#32 + Ideal.exp (-(_ + _))) = Ideal.div 1 (1 + Ideal.exp (-(_ + _)))
  rw [Ideal.ofBits_one_f32]

/-- THE REFERENCE'S RESULT, whole: the array of all scores. -/
theorem result_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) (x6 : (⟨S2x128, .f32⟩ : BufTy).Contents (Elt Ideal)) (x7 : (⟨S2, .f32⟩ : BufTy).Contents (Elt Ideal)) :
    val_main_v38 (F := Ideal) x0 x1 x2 x3 x4 x5 x6 x7 = Sage.scores x0 (val_main_v18 (F := Ideal) x0 x1 x2) x3 x4 x5 x6 x7 := by
  funext p
  obtain ⟨i, j, rfl⟩ : ∃ (i : Fin 50000) (j : Fin 2), p = ix2 i j := ⟨p 0, p 1, eq_ix2 p⟩
  exact result_apply x0 x1 x2 x3 x4 x5 x6 x7 i j

end Cert.ReferenceIdeal.Score

end
-- ==== Proof.lean ====
/-
  The kernel and its reference compute one function on the extended reals.

  Both programs first form, by the same host operations, the mean `h` of every node's in-neighbours' feature rows.
  The reference then computes `logistic (relu (x·Wselfᵀ + h·Wneighᵀ + b)·Wfcᵀ + bfc)` with host matrix products, the
  logistic function spelt `1 / (1 + exp (−·))`. The kernel computes the same expression 2000 rows at a time, with the
  classifier matrix and bias padded from 2 to 128 columns, and keeps the first two columns of its result. On the
  extended reals a rounding to bf16 is the identity, a matrix product into a zero accumulator is the plain sum of
  products, the padded columns never reach the kept ones, and both spellings of the logistic function are one function:
  entry (i, j) of both results is `Sage.score` of row i of `x` and of `h` against the weights and class j's row of the
  classifier (NodeScore). No law of arithmetic beyond that is used, so the inputs' finiteness is never needed.

  The modules: NodeScore (the function); KernelBody (what the body stores, at an entry); KernelArray (the output array
  from the 25 blocks); KernelEntry (the arrays the region finds, as host operations of the arguments); KernelColumns
  (the kept columns are the arguments' scores); KernelRun (the kernel program's run); ReferenceScore (the reference's
  result at an entry). The frames of the two kernel programs are the generated ones; the reference's frame is its
  generated run with the result dropped; the idealization rewrote nothing.
-/
import proofs.«119287_j53266184405049_1_alg».proof.Defs
import proofs.«119287_j53266184405049_1_alg».proof.Proof.Gen.Kernel
import proofs.«119287_j53266184405049_1_alg».proof.Proof.Gen.Kernel.Skeleton
import proofs.«119287_j53266184405049_1_alg».proof.Proof.Gen.Kernel.Launch
import proofs.«119287_j53266184405049_1_alg».proof.Proof.Gen.Kernel.Points
import proofs.«119287_j53266184405049_1_alg».proof.Proof.Gen.Kernel.Frame
import proofs.«119287_j53266184405049_1_alg».proof.Proof.Gen.KernelIdeal
import proofs.«119287_j53266184405049_1_alg».proof.Proof.Gen.KernelIdeal.Skeleton
import proofs.«119287_j53266184405049_1_alg».proof.Proof.Gen.KernelIdeal.Launch
import proofs.«119287_j53266184405049_1_alg».proof.Proof.Gen.KernelIdeal.Points
import proofs.«119287_j53266184405049_1_alg».proof.Proof.Gen.KernelIdeal.Frame
import proofs.«119287_j53266184405049_1_alg».proof.Proof.Gen.ReferenceIdeal
import proofs.«119287_j53266184405049_1_alg».proof.Proof.Gen.Pre_finite_inputs
import proofs.«119287_j53266184405049_1_alg».proof.Proof.Gen.ReferenceIdeal.Run
import proofs.«119287_j53266184405049_1_alg».proof.Proof.Gen.ReferenceIdeal.Read
import proofs.«119287_j53266184405049_1_alg».proof.Proof.KernelRun
import proofs.«119287_j53266184405049_1_alg».proof.Proof.ReferenceScore
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the array of all nodes' class scores of the arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v38_eq, Cert.ReferenceIdeal.Score.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
